-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S256x256 : Shape := ⟨2, ![256, 256]⟩
abbrev S256 : Shape := ⟨1, ![256]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S262144x256 .f32) (main_arg1 : FVec F S256x256 .f32) (main_arg2 : FVec F S256 .f32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S262144x256 : Shape := ⟨2, ![262144, 256]⟩
abbrev S256x256 : Shape := ⟨2, ![256, 256]⟩
abbrev S256 : Shape := ⟨1, ![256]⟩
abbrev S1x256 : Shape := ⟨2, ![1, 256]⟩
abbrev S262144x256x2 : Shape := ⟨3, ![262144, 256, 2]⟩
abbrev S2048x256 : Shape := ⟨2, ![2048, 256]⟩
abbrev S2048x256x2 : Shape := ⟨3, ![2048, 256, 2]⟩
abbrev S2048x256x1 : Shape := ⟨3, ![2048, 256, 1]⟩

abbrev nBuf : Space → Nat
  | .hbm => 5
  | .vmem => 6
  | .smem => 0
  | _ => 0

abbrev bufTy : (tb : Table) → Fin (tcTables nBuf tb) → BufTy
  | .hbm, ⟨0, _⟩ => ⟨S262144x256, .f32⟩
  | .hbm, ⟨1, _⟩ => ⟨S256x256, .f32⟩
  | .hbm, ⟨2, _⟩ => ⟨S256, .f32⟩
  | .hbm, ⟨3, _⟩ => ⟨S1x256, .f32⟩
  | .hbm, ⟨4, _⟩ => ⟨S262144x256x2, .f32⟩
  | .local _ .vmem, ⟨0, _⟩ => ⟨S2048x256, .f32⟩
  | .local _ .vmem, ⟨1, _⟩ => ⟨S2048x256, .f32⟩
  | .local _ .vmem, ⟨2, _⟩ => ⟨S256x256, .f32⟩
  | .local _ .vmem, ⟨3, _⟩ => ⟨S1x256, .f32⟩
  | .local _ .vmem, ⟨4, _⟩ => ⟨S2048x256x2, .f32⟩
  | .local _ .vmem, ⟨5, _⟩ => ⟨S2048x256x2, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x256x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S256_S1x256 : S256.ShapeCasts S1x256
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  shapeCasts_S2048x256_S2048x256x1 : S2048x256.ShapeCasts S2048x256x1
  concatenates_S2048x256x1_S2048x256x1_S2048x256x2_d2 : Shape.Concatenates [S2048x256x1, S2048x256x1] S2048x256x2 2
  inb_S2048x256x2_S2048x256x2_0_0_0 : ∀ a, (![0, 0, 0] : Fin 3 → Nat) a + S2048x256x2.size a ≤ S2048x256x2.size a
  h_S2048x256x2 : 0 < S2048x256x2.numel
  dot_S2048x256_S256x256_S2048x256_1_1_0_0_n_n_wf : DotDims.WF S2048x256 S256x256 S2048x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S262144x256.size a
  hwx0_0 : ∀ i : grid0.Coords, EltTy.bits .f32 = 32 ∨ (Rect.block (s := S262144x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x256x2.size a ≤ S262144x256x2.size a
  hwx0_3 : ∀ i : grid0.Coords, EltTy.bits .f32 = 32 ∨ (Rect.block (s := S262144x256x2) S2048x256x2.size (cc0_transform_3 i) (hinb0_3 i)).WholeWords (EltTy.packing .f32)

variable [Facts₀]

def dot_S2048x256_S256x256_S2048x256_1_1_0_0_n_n : DotDims S2048x256 S256x256 S2048x256 where
  lhsContracting := [1]
  rhsContracting := [1]
  lhsNonContracting := [0]
  rhsNonContracting := [0]
  lhsBatch := []
  rhsBatch := []
  wf := dot_S2048x256_S256x256_S2048x256_1_1_0_0_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x256x2.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x256 : Shape := ⟨2, ![262144, 256]⟩
abbrev S256x256 : Shape := ⟨2, ![256, 256]⟩
abbrev S256 : Shape := ⟨1, ![256]⟩
abbrev S1x256 : Shape := ⟨2, ![1, 256]⟩
abbrev S_ : Shape := ⟨0, ![]⟩
abbrev S262144x256x1 : Shape := ⟨3, ![262144, 256, 1]⟩
abbrev S262144x256x2 : Shape := ⟨3, ![262144, 256, 2]⟩

abbrev nBuf : Space → Nat
  | .hbm => 22
  | .vmem => 0
  | .smem => 0
  | _ => 0

abbrev bufTy : (tb : Table) → Fin (tcTables nBuf tb) → BufTy
  | .hbm, ⟨0, _⟩ => ⟨S262144x256, .f32⟩
  | .hbm, ⟨1, _⟩ => ⟨S256x256, .f32⟩
  | .hbm, ⟨2, _⟩ => ⟨S256, .f32⟩
  | .hbm, ⟨3, _⟩ => ⟨S262144x256, .f32⟩
  | .hbm, ⟨4, _⟩ => ⟨S1x256, .f32⟩
  | .hbm, ⟨5, _⟩ => ⟨S262144x256, .f32⟩
  | .hbm, ⟨6, _⟩ => ⟨S262144x256, .f32⟩
  | .hbm, ⟨7, _⟩ => ⟨S_, .f32⟩
  | .hbm, ⟨8, _⟩ => ⟨S262144x256, .f32⟩
  | .hbm, ⟨9, _⟩ => ⟨S262144x256, .f32⟩
  | .hbm, ⟨10, _⟩ => ⟨S262144x256, .f32⟩
  | .hbm, ⟨11, _⟩ => ⟨S_, .f32⟩
  | .hbm, ⟨12, _⟩ => ⟨S262144x256, .f32⟩
  | .hbm, ⟨13, _⟩ => ⟨S262144x256, .f32⟩
  | .hbm, ⟨14, _⟩ => ⟨S262144x256, .f32⟩
  | .hbm, ⟨15, _⟩ => ⟨S262144x256, .f32⟩
  | .hbm, ⟨16, _⟩ => ⟨S262144x256, .f32⟩
  | .hbm, ⟨17, _⟩ => ⟨S262144x256, .f32⟩
  | .hbm, ⟨18, _⟩ => ⟨S262144x256, .f32⟩
  | .hbm, ⟨19, _⟩ => ⟨S262144x256x1, .f32⟩
  | .hbm, ⟨20, _⟩ => ⟨S262144x256x1, .f32⟩
  | .hbm, ⟨21, _⟩ => ⟨S262144x256x2, .f32⟩
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S262144x256_0_1 : S1x256.BroadcastsInDim S262144x256 (![0, 1] : Fin 2 → Fin S262144x256.rank)
  bcast_S_S262144x256 : S_.BroadcastsInDim S262144x256 (![] : Fin 0 → Fin S262144x256.rank)
  bcast_S262144x256_S262144x256x1_0_1 : S262144x256.BroadcastsInDim S262144x256x1 (![0, 1] : Fin 2 → Fin S262144x256x1.rank)
  concatenates_S262144x256x1_S262144x256x1_S262144x256x2_d2 : Shape.Concatenates [S262144x256x1, S262144x256x1] S262144x256x2 2
  dot_S262144x256_S256x256_S262144x256_1_1_0_0_n_n_wf : DotDims.WF S262144x256 S256x256 S262144x256 [1] [1] [0] [0] [] []

variable [Facts₀]

def dot_S262144x256_S256x256_S262144x256_1_1_0_0_n_n : DotDims S262144x256 S256x256 S262144x256 where
  lhsContracting := [1]
  rhsContracting := [1]
  lhsNonContracting := [0]
  rhsNonContracting := [0]
  lhsBatch := []
  rhsBatch := []
  wf := dot_S262144x256_S256x256_S262144x256_1_1_0_0_n_n_wf

class Facts : Prop extends Facts₀ where

variable [Facts]
-- ==== Proof.GaborSpec.lean ====
/-
  The function both programs compute, stated once over the three argument arrays and read index by index.

  With `x : [262144, 256]`, `W : [256, 256]` and `b : [256]` extended reals, the affine layer is
  `lin n o = (∑ k, x[n, k] · W[o, k]) + b[o]` — row `n` of `x` against ROW `o` of `W` (both operands are
  contracted along their second axis; no transpose appears). Each value `l` of the layer gives two output
  channels: the Gaussian envelope `exp (c₂ · (l · l))` times `cos (c₁ · l)` (channel 0, the real part) and times
  `sin (c₁ · l)` (channel 1, the imaginary part), where `c₁ = 30` and `c₂ = −3600` are kept as the f32 words the
  two programs share: nothing below ever asks what real number a word denotes, only that it is the same word on
  both sides. The order of the factors is the programs' own (`c · l`, not `l · c`; `l · l`), so that both programs
  reduce to this function without any law of the extended reals beyond re-indexing a finite sum.
-/
import Idealize.ShloMosaic.PureOps.Ideal
import Idealize.ShloMosaic.Lib.ValueIdx

noncomputable section

open scoped BigOperators

namespace Cert.Gabor

open Idealize.ShloMosaic Idealize.ShloMosaic.ValueIdx

/-- The affine layer at row `n` and output feature `o`: row `n` of `x` against row `o` of `W`, plus `b o`. -/
def lin (x : (⟨2, ![262144, 256]⟩ : Shape).Idx → EReal) (W : (⟨2, ![256, 256]⟩ : Shape).Idx → EReal)
    (b : (⟨1, ![256]⟩ : Shape).Idx → EReal) (n : Fin 262144) (o : Fin 256) : EReal :=
  (∑ k : Fin 256, x (ix2 n k) * W (ix2 o k)) + b (ix1 o)

/-- The Gaussian envelope of one value of the affine layer, `exp (−3600 · (l · l))`. -/
def envelope (l : EReal) : EReal := Ideal.exp (Ideal.ofBits .f32 0xC5610000#32 * (l * l))

/-- The phase of one value of the affine layer, `30 · l`. -/
def phase (l : EReal) : EReal := Ideal.ofBits .f32 0x41F00000#32 * l

/-- The two channels of one value of the affine layer: channel 0 is `envelope · cos phase`, channel 1 is
    `envelope · sin phase`. -/
def chan (c : Fin 2) (l : EReal) : EReal :=
  if c.val = 0 then envelope l * Ideal.cos (phase l) else envelope l * Ideal.sin (phase l)

theorem chan_zero (l : EReal) : chan 0 l = envelope l * Ideal.cos (phase l) := if_pos rfl

theorem chan_one (l : EReal) : chan 1 l = envelope l * Ideal.sin (phase l) := if_neg (by decide)

/-- The whole result `[262144, 256, 2]`: at `(n, o, c)`, channel `c` of the affine layer's value at `(n, o)`. -/
def gabor (x : (⟨2, ![262144, 256]⟩ : Shape).Idx → EReal) (W : (⟨2, ![256, 256]⟩ : Shape).Idx → EReal)
    (b : (⟨1, ![256]⟩ : Shape).Idx → EReal) : (⟨3, ![262144, 256, 2]⟩ : Shape).Idx → EReal :=
  fun i => chan (i 2) (lin x W b (i 0) (i 1))

theorem gabor_ix3 (x : (⟨2, ![262144, 256]⟩ : Shape).Idx → EReal) (W : (⟨2, ![256, 256]⟩ : Shape).Idx → EReal)
    (b : (⟨1, ![256]⟩ : Shape).Idx → EReal) (n : Fin 262144) (o : Fin 256) (c : Fin 2) :
    gabor x W b (ix3 n o c) = chan c (lin x W b n o) := rfl

end Cert.Gabor

end
-- ==== Proof.RefIsGabor.lean ====
/-
  The reference computes `Cert.Gabor.gabor`.

  Its last stage joins two `[262144, 256, 1]` arrays along the third axis; an index `(n, o, c)` of the join with `c = 0`
  falls in the first piece and with `c = 1` in the second, each read at `(n, o, 0)`. The pieces are the real and the
  imaginary products with a unit axis added, so they read at `(n, o)`. From there every stage is elementwise down
  to the affine layer, whose `dot_general` is the sum over `k` of `x[n, k] · W[o, k]` and whose bias is `b` broadcast
  twice (`[256] → [1, 256] → [262144, 256]`), read at `o`.
-/
import proofs.«130023_j36481452212333_2_alg».proof.Proof.Gen.ReferenceIdeal.Read
import proofs.«130023_j36481452212333_2_alg».proof.Proof.GaborSpec

noncomputable section

open scoped BigOperators

namespace Cert.ReferenceIdeal.RefValue

open Cert.ReferenceIdeal Cert.ReferenceIdeal.Read Cert.Gabor
open Idealize.ShloMosaic Idealize.ShloMosaic.ValueIdx

variable (x0 : (⟨S262144x256, .f32⟩ : BufTy).Contents (Elt Ideal)) (x1 : (⟨S256x256, .f32⟩ : BufTy).Contents (Elt Ideal))
  (x2 : (⟨S256, .f32⟩ : BufTy).Contents (Elt Ideal))

/-! ## The composed index functions at coordinates -/

/-- The left operand of the contraction at output `(n, o)` and contraction index `k` is read at `(n, k)`. -/
theorem lidx_at (n : Fin 262144) (o k : Fin 256) : lidx_main_v0 (ix2 n o) k = ix2 n k :=
  funext fun a => Fin.ext (by match a with | ⟨0, _⟩ => rfl | ⟨1, _⟩ => rfl)

/-- The right operand is read at `(o, k)`: row `o` of the weights. -/
theorem ridx_at (n : Fin 262144) (o k : Fin 256) : ridx_main_v0 (ix2 n o) k = ix2 o k :=
  funext fun a => Fin.ext (by match a with | ⟨0, _⟩ => rfl | ⟨1, _⟩ => rfl)

/-- The bias, broadcast to a row and then down the rows, is read at `o`. -/
theorem bias_idx_at (n : Fin 262144) (o : Fin 256) : idx_main_v1 (idx_main_v2 (ix2 n o)) = ix1 o :=
  funext fun a => Fin.ext (by match a with | ⟨0, _⟩ => rfl)

/-- Adding the unit axis: `(n, o, 0)` of the real piece reads `(n, o)`. -/
theorem idx14_at (n : Fin 262144) (o : Fin 256) (z : Fin 1) : idx_main_v14 (ix3 n o z) = ix2 n o :=
  funext fun a => Fin.ext (by match a with | ⟨0, _⟩ => rfl | ⟨1, _⟩ => rfl)

/-- The same for the imaginary piece. -/
theorem idx15_at (n : Fin 262144) (o : Fin 256) (z : Fin 1) : idx_main_v15 (ix3 n o z) = ix2 n o :=
  funext fun a => Fin.ext (by match a with | ⟨0, _⟩ => rfl | ⟨1, _⟩ => rfl)

/-! ## The stages at coordinates -/

/-- The affine stage at `(n, o)`. -/
theorem affine_at (n : Fin 262144) (o : Fin 256) :
    val_main_v3 (F := Ideal) x0 x1 x2 (ix2 n o) = lin x0 x1 x2 n o := by
  rw [val_main_v3_apply, val_main_v0_apply, val_main_v2_apply, val_main_v1_apply]
  simp only [lidx_at, ridx_at, bias_idx_at]
  rfl

/-- The real product at `(n, o)`: channel 0 of the affine value. -/
theorem real_at (n : Fin 262144) (o : Fin 256) :
    val_main_v11 (F := Ideal) x0 x1 x2 (ix2 n o) = chan 0 (lin x0 x1 x2 n o) := by
  rw [val_main_v11_apply, val_main_v9_apply, val_main_v10_apply, val_main_v8_apply, val_main_v7_apply,
    val_main_cst_0_apply, val_main_v6_apply, val_main_v5_apply, val_main_v4_apply, val_main_cst_apply, affine_at, chan_zero]
  rfl

/-- The imaginary product at `(n, o)`: channel 1 of the affine value. -/
theorem imag_at (n : Fin 262144) (o : Fin 256) :
    val_main_v13 (F := Ideal) x0 x1 x2 (ix2 n o) = chan 1 (lin x0 x1 x2 n o) := by
  rw [val_main_v13_apply, val_main_v9_apply, val_main_v12_apply, val_main_v8_apply, val_main_v7_apply,
    val_main_cst_0_apply, val_main_v6_apply, val_main_v5_apply, val_main_v4_apply, val_main_cst_apply, affine_at, chan_one]
  rfl

/-! ## The join -/

/-- The reference's result, as its last stage, is `gabor` of the three arguments. -/
theorem ref_is_gabor : val_main_v16 (F := Ideal) x0 x1 x2 = gabor x0 x1 x2 := by
  funext i
  obtain ⟨n, o, c, rfl⟩ : ∃ (n : Fin 262144) (o : Fin 256) (c : Fin 2), i = ix3 n o c := ⟨i 0, i 1, i 2, eq_ix3 i⟩
  rw [gabor_ix3]
  unfold val_main_v16
  match c with
  | ⟨0, _⟩ =>
    refine (concatenate_pair_apply_left (2 : Fin 3) (val_main_v14 (F := Ideal) x0 x1 x2) (val_main_v15 (F := Ideal) x0 x1 x2)
      _ (ix3 n o (0 : Fin 2)) rfl (ix3 n o (0 : Fin 1))
      (fun b => by match b with | ⟨0, _⟩ => rfl | ⟨1, _⟩ => rfl | ⟨2, _⟩ => rfl)).trans ?_
    rw [val_main_v14_apply, idx14_at, real_at]
    rfl
  | ⟨1, _⟩ =>
    refine (concatenate_pair_apply_right (2 : Fin 3) (val_main_v14 (F := Ideal) x0 x1 x2) (val_main_v15 (F := Ideal) x0 x1 x2)
      _ (ix3 n o (1 : Fin 2)) rfl rfl (ix3 n o (0 : Fin 1))
      (fun b hb => by
        match b, hb with
        | ⟨0, _⟩, _ => rfl
        | ⟨1, _⟩, _ => rfl
        | ⟨2, _⟩, hb => exact absurd (Fin.ext rfl) hb)
      rfl).trans ?_
    rw [val_main_v15_apply, idx15_at, imag_at]
    rfl

end Cert.ReferenceIdeal.RefValue

end
-- ==== Proof.PayloadAt.lean ====
/-
  What the kernel body stores, read at one index of its `[2048, 256, 2]` block.

  The body takes a `[2048, 256]` block of `x`, the whole `[256, 256]` weights and the bias as one row `[1, 256]`.
  Its matrix product contracts the second axis of both operands into a zero accumulator, so at `(r, o)` it is the plain
  sum over `k` of `xblk[r, k] · W[o, k]` (the change of float format in front of it is the identity on extended reals);
  the bias row is broadcast down the rows and read at `(0, o)`. Everything after that is elementwise, then a unit axis
  is added to each of the two products (row-major positions agree: `(r · 256 + o) · 1 + 0`), and the two are joined
  along the new axis: channel `c` of the store at `(r, o, c)` is channel `c` of the block's affine value at `(r, o)`.
-/
import proofs.«130023_j36481452212333_2_alg».proof.Proof.Gen.KernelIdeal.Skeleton
import proofs.«130023_j36481452212333_2_alg».proof.Proof.GaborSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Cert.Gabor
open Idealize.ShloMosaic Idealize.ShloMosaic.ValueIdx

variable (x0 : Vec Ideal S2048x256 .f32) (x1 : Vec Ideal S256x256 .f32) (x2 : Vec Ideal S1x256 .f32)

/-! ## The affine part of the body -/

/-- The block's affine value at `(r, o)`: row `r` of the `x` block against row `o` of the weights, plus the bias row at `o`. -/
def blockLin (r : Fin 2048) (o : Fin 256) : EReal :=
  (∑ k : Fin 256, x0 (ix2 r k) * x1 (ix2 o k)) + x2 (ix2 (0 : Fin 1) o)

/-- The body's affine vector: the matrix product into the zero accumulator, plus the broadcast bias row. -/
def affineVec : FVec Ideal S2048x256 .f32 :=
  addf (matmul dot_S2048x256_S256x256_S2048x256_1_1_0_0_n_n none (truncf .bf16 x0 bitsLt_bf16_f32) (truncf .bf16 x1 bitsLt_bf16_f32)
      (constant S2048x256 .f32 0x00000000#32))
    (broadcastTo S2048x256 (shapeCast S1x256 x2 shapeCasts_S1x256_S1x256) broadcasts_S1x256_S2048x256)

local notation "D" => dot_S2048x256_S256x256_S2048x256_1_1_0_0_n_n

/-- The product's left operand index keeps the output's row. -/
theorem lhs_row (i : S2048x256.Idx) (q : (D).contr.Idx) : ((D).lhsIdx i q 0).val = (i 0).val := by
  unfold DotDims.lhsIdx
  rw [dif_neg (show ¬(0 : Fin S2048x256.rank) ∈ (D).lhsBatch by decide), dif_pos (show (0 : Fin S2048x256.rank) ∈ (D).lhsNonContracting by decide)]
  rfl

/-- Its second coordinate is the contraction index. -/
theorem lhs_contr (i : S2048x256.Idx) (q : (D).contr.Idx) : ((D).lhsIdx i q 1).val = (q ⟨0, by decide⟩).val :=
  (D).lhsIdx_val_of_single rfl i q

/-- The right operand's row is the output's COLUMN: the weights are contracted along their second axis. -/
theorem rhs_row (i : S2048x256.Idx) (q : (D).contr.Idx) : ((D).rhsIdx i q 0).val = (i 1).val := by
  unfold DotDims.rhsIdx
  rw [dif_neg (show ¬(0 : Fin S256x256.rank) ∈ (D).rhsBatch by decide), dif_pos (show (0 : Fin S256x256.rank) ∈ (D).rhsNonContracting by decide)]
  rfl

/-- Its second coordinate is the contraction index. -/
theorem rhs_contr (i : S2048x256.Idx) (q : (D).contr.Idx) : ((D).rhsIdx i q 1).val = (q ⟨0, by decide⟩).val :=
  (D).rhsIdx_val_of_single rfl i q

/-- The affine vector at `(r, o)`. -/
theorem affineVec_at (r : Fin 2048) (o : Fin 256) : affineVec x0 x1 x2 (ix2 r o) = blockLin x0 x1 x2 r o := by
  unfold affineVec blockLin
  rw [addf_apply]
  congr 1
  · simp only [matmul]
    rw [Ideal.matmul_constant_zero_apply, ← Equiv.sum_comp (contrEquiv1 (D) 256 rfl rfl).symm]
    refine Finset.sum_congr rfl fun k _ => ?_
    have hk := contrEquiv1_symm_val (D) 256 rfl rfl k
    have el : (D).lhsIdx (ix2 r o) ((contrEquiv1 (D) 256 rfl rfl).symm k) = ix2 r k := funext fun a => Fin.ext (by
      match a with
      | ⟨0, _⟩ => exact lhs_row _ _
      | ⟨1, _⟩ => exact (lhs_contr _ _).trans hk)
    have er : (D).rhsIdx (ix2 r o) ((contrEquiv1 (D) 256 rfl rfl).symm k) = ix2 o k := funext fun a => Fin.ext (by
      match a with
      | ⟨0, _⟩ => exact rhs_row _ _
      | ⟨1, _⟩ => exact (rhs_contr _ _).trans hk)
    rw [el, er]
    rfl
  · rw [broadcastTo_1b_ab_apply, shapeCast_self]

/-! ## The unit axis and the join -/

/-- A `[2048, 256]` vector with a unit axis added behind reads, at `(r, o, 0)`, the vector at `(r, o)`. -/
theorem addUnitLast_at {α : Type} (v : S2048x256.Idx → α) (h : S2048x256.ShapeCasts S2048x256x1) (r : Fin 2048) (o : Fin 256) (z : Fin 1) :
    shapeCast S2048x256x1 v h (ix3 r o z) = v (ix2 r o) := by
  refine shapeCast_apply v h (ix3 r o z) (ix2 r o) ?_
  rw [Shape.rowMajor_val_two, Shape.rowMajor_val_three]
  show r.val * 256 + o.val = (r.val * 256 + o.val) * 1 + z.val
  have := z.isLt
  omega

/-- THE STORE at `(r, o, c)`: channel `c` of the block's affine value at `(r, o)`. -/
theorem pay_at (r : Fin 2048) (o : Fin 256) (c : Fin 2) :
    k0_pay1 (F := Ideal) x0 x1 x2 (ix3 r o c) = chan c (blockLin x0 x1 x2 r o) := by
  unfold k0_pay1
  match c with
  | ⟨0, _⟩ =>
    refine (concatenate_pair_apply_left (t := S2048x256x2) (s₁ := S2048x256x1) (s₂ := S2048x256x1) (2 : Fin 3) _ _ _ (ix3 r o (0 : Fin 2)) rfl (ix3 r o (0 : Fin 1))
      (fun b => by match b with | ⟨0, _⟩ => rfl | ⟨1, _⟩ => rfl | ⟨2, _⟩ => rfl)).trans ?_
    refine (addUnitLast_at _ _ r o 0).trans ?_
    show _ = chan (0 : Fin 2) _
    rw [chan_zero, ← affineVec_at]
    rfl
  | ⟨1, _⟩ =>
    refine (concatenate_pair_apply_right (t := S2048x256x2) (s₁ := S2048x256x1) (s₂ := S2048x256x1) (2 : Fin 3) _ _ _ (ix3 r o (1 : Fin 2)) rfl rfl (ix3 r o (0 : Fin 1))
      (fun b hb => by
        match b, hb with
        | ⟨0, _⟩, _ => rfl
        | ⟨1, _⟩, _ => rfl
        | ⟨2, _⟩, hb => exact absurd (Fin.ext rfl) hb)
      rfl).trans ?_
    refine (addUnitLast_at _ _ r o 0).trans ?_
    show _ = chan (1 : Fin 2) _
    rw [chan_one, ← affineVec_at]
    rfl

end Cert.KernelIdeal.Payload

end
-- ==== Proof.GaborBlocks.lean ====
/-
  From what each grid point writes back to the whole result array.

  The grid has 128 points; point `t` works on rows `2048 · t … 2048 · t + 2047`. Its `x` block is those rows of `x`
  (all 256 columns), the weights' and the bias row's blocks are the whole arrays at every point, and its output block is
  those rows of the result (all 256 features, both channels). So index `(r, o, c)` of point `t`'s output block is index
  `(2048 · t + r, o, c)` of the result, and the block's affine value at `(r, o)` is the affine layer at
  `(2048 · t + r, o)`: the `x` block's row `r` IS row `2048 · t + r` of `x`. The bias row the body loads is the bias
  vector with a unit axis in front (the one host operation before the launch), read at `(0, o)` as `b o`.
  Every row `n` lies in the block of point `n / 2048`, so the blocks cover the array and it ends holding `gabor` of the
  three arguments.
-/
import proofs.«130023_j36481452212333_2_alg».proof.Proof.Gen.KernelIdeal.Value
import proofs.«130023_j36481452212333_2_alg».proof.Proof.GaborSpec
import proofs.«130023_j36481452212333_2_alg».proof.Proof.PayloadAt
import Idealize.ShloMosaic.Lib.StableHlo.Run
import Idealize.ShloMosaic.Lib.ValueLayout

noncomputable section

open scoped BigOperators

namespace Cert.KernelIdeal.Whole

open Cert.KernelIdeal Cert.KernelIdeal.Gen Cert.KernelIdeal.Payload Cert.Gabor
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The block indices over the grid -/

theorem origin2 : (![0, 0] : Fin 2 → Nat) = fun _ => 0 := funext fun a => by fin_cases a <;> rfl
theorem origin3 : (![0, 0, 0] : Fin 3 → Nat) = fun _ => 0 := funext fun a => by fin_cases a <;> rfl

/-- Decided over the 128 points: the `x` block moves with the output block along the rows and nowhere else; the weights
    and the bias row stay at block 0; the output block's row index is below 128. -/
theorem block_indices : ∀ t : Fin cfg0.N,
    win0_0.index t (0 : Fin 2) = win0_3.index t (0 : Fin 3) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 3) = 0 ∧ win0_3.index t (2 : Fin 3) = 0
    ∧ win0_3.index t (0 : Fin 3) ≤ 127 :=
  (by decide +kernel : ∀ t : Fin grid0.N, _)

/-- Every one of the 128 row blocks is some point's. -/
theorem block_onto : ∀ q : Fin 128, ∃ t : Fin cfg0.N, win0_3.index t (0 : Fin 3) = q.val :=
  (by decide +kernel : ∀ q : Fin 128, ∃ t : Fin grid0.N, win0_3.index t (0 : Fin 3) = q.val)

/-! ## The input blocks, read at coordinates -/

/-- The bias row as the launch finds it: the bias vector with a unit axis in front. -/
theorem biasRow (c : Dev nD) :
    (V m c main_v0 : S1x256.Idx → EReal) = shapeCast S1x256 (m ((c : Thread nD τ).loc main_arg2)) shapeCasts_S256_S1x256 := by
  dsimp only [Gen.V, Gen.hostOps0]
  after_results
  rfl

/-- Row `r` of point `t`'s `x` block is row `n = 2048 · (block row) + r` of `x`. -/
theorem xblock_at (c : Dev nD) (t : Fin cfg0.N) (r : Fin 2048) (k : Fin 256) (n : Fin 262144)
    (hn : n.val = win0_3.index t (0 : Fin 3) * 2048 + r.val) :
    iblk m c 0 t (ix2 r k) = m ((c : Thread nD τ).loc main_arg0) (ix2 n k) := by
  obtain ⟨e0, e1, -⟩ := block_indices t
  show V m c main_arg0 (((cfg0.win 0).blk t).view.emb (ix2 r k)) = _
  rw [V_main_arg0]
  refine congrArg _ (funext fun a => Fin.ext ?_)
  match a with
  | ⟨0, _⟩ => show win0_0.index t (0 : Fin 2) * 2048 + 1 * r.val = n.val; omega
  | ⟨1, _⟩ => show win0_0.index t (1 : Fin 2) * 256 + 1 * k.val = k.val; omega

/-- The weights' block is the weights. -/
theorem wblock_at (c : Dev nD) (t : Fin cfg0.N) (o k : Fin 256) :
    iblk m c 1 t (ix2 o k) = m ((c : Thread nD τ).loc main_arg1) (ix2 o k) := by
  obtain ⟨-, -, e2, e3, -⟩ := block_indices t
  show V m c main_arg1 (((cfg0.win 1).blk t).view.emb (ix2 o k)) = _
  rw [V_main_arg1]
  refine congrArg _ (funext fun a => Fin.ext ?_)
  match a with
  | ⟨0, _⟩ => show win0_1.index t (0 : Fin 2) * 256 + 1 * o.val = o.val; omega
  | ⟨1, _⟩ => show win0_1.index t (1 : Fin 2) * 256 + 1 * k.val = k.val; omega

/-- The bias row's block at `(0, o)` is the bias vector at `o`. -/
theorem bblock_at (c : Dev nD) (t : Fin cfg0.N) (o : Fin 256) :
    iblk m c 2 t (ix2 (0 : Fin 1) o) = m ((c : Thread nD τ).loc main_arg2) (ix1 o) := by
  obtain ⟨-, -, -, -, e4, e5, -⟩ := block_indices t
  show V m c main_v0 (((cfg0.win 2).blk t).view.emb (ix2 (0 : Fin 1) o)) = _
  have hemb : ((cfg0.win 2).blk t).view.emb (ix2 (0 : Fin 1) o) = ix2 (0 : Fin 1) o := funext fun a => Fin.ext (by
    match a with
    | ⟨0, _⟩ => show win0_2.index t (0 : Fin 2) * 1 + 1 * 0 = 0; omega
    | ⟨1, _⟩ => show win0_2.index t (1 : Fin 2) * 256 + 1 * o.val = o.val; omega)
  rw [hemb, biasRow]
  exact shapeCast_a_1a_apply _ _ 0 o

/-! ## What a point writes back -/

/-- WHAT POINT `t` WRITES BACK is block `t` of `gabor` of the three arguments. -/
theorem flushed_eq (c : Dev nD) (t : Fin cfg0.N) :
    (dats m 0 c).flushed 3 t = ((cfg0.win 3).blk t).view.read (Elt Ideal)
      (gabor (m ((c : Thread nD τ).loc main_arg0)) (m ((c : Thread nD τ).loc main_arg1)) (m ((c : Thread nD τ).loc main_arg2))) := by
  rw [Value.flushed3]
  unfold out0_3
  rw [View.canon_unit_zero origin3]
  simp only [View.ld_unit_zero (S := S2048x256) origin2, View.ld_unit_zero (S := S256x256) origin2, View.ld_unit_zero (S := S1x256) origin2]
  obtain ⟨-, -, -, -, -, -, e6, e7, e8⟩ := block_indices t
  funext j
  show k0_pay1 (F := Ideal) (iblk m c 0 t) (iblk m c 1 t) (iblk m c 2 t) j
    = gabor (m ((c : Thread nD τ).loc main_arg0)) (m ((c : Thread nD τ).loc main_arg1)) (m ((c : Thread nD τ).loc main_arg2)) (((cfg0.win 3).blk t).view.emb j)
  obtain ⟨r, o, ch, rfl⟩ : ∃ (r : Fin 2048) (o : Fin 256) (ch : Fin 2), j = ix3 r o ch := ⟨j 0, j 1, j 2, eq_ix3 j⟩
  refine (pay_at (iblk m c 0 t) (iblk m c 1 t) (iblk m c 2 t) r o ch).trans ?_
  have hn : win0_3.index t (0 : Fin 3) * 2048 + r.val < 262144 := by omega
  have hemb : ((cfg0.win 3).blk t).view.emb (ix3 r o ch) = ix3 (⟨win0_3.index t (0 : Fin 3) * 2048 + r.val, hn⟩ : Fin 262144) o ch :=
    funext fun a => Fin.ext (by
      match a with
      | ⟨0, _⟩ => show win0_3.index t (0 : Fin 3) * 2048 + 1 * r.val = win0_3.index t (0 : Fin 3) * 2048 + r.val; omega
      | ⟨1, _⟩ => show win0_3.index t (1 : Fin 3) * 256 + 1 * o.val = o.val; omega
      | ⟨2, _⟩ => show win0_3.index t (2 : Fin 3) * 2 + 1 * ch.val = ch.val; omega)
  rw [hemb, gabor_ix3]
  congr 1
  unfold blockLin lin
  congr 1
  · refine Finset.sum_congr rfl fun k _ => ?_
    rw [xblock_at m c t r k ⟨_, hn⟩ rfl, wblock_at m c t o k]
  · exact bblock_at m c t o

/-! ## The cover -/

/-- An index of the result is in point `t`'s block iff each coordinate is in the block's range on its axis. -/
theorem mem_block (t : Fin cfg0.N) (i : S262144x256x2.Idx) :
    i ∈ ((cfg0.win 3).blk t).view.set ↔ ∀ a : Fin 3, win0_3.index t a * S2048x256x2.size a ≤ (i a).val ∧ (i a).val < win0_3.index t a * S2048x256x2.size a + S2048x256x2.size a := by
  show i ∈ ((View.whole main_v1).slice (win0_3.rect t)).set ↔ _
  rw [View.set_slice_whole, Rect.mem_set_unit]
  exact Iff.rfl

/-- Row `n` lies in the block of the point whose block row is `n / 2048`: the blocks cover the result. -/
theorem cover (i : S262144x256x2.Idx) :
    ∃ t : Fin cfg0.N, (cfg0.win 3).flush t = true ∧ i ∈ ((cfg0.win 3).blk t).view.set := by
  have hi0 : (i 0).val < 262144 := (i 0).isLt
  have hi1 : (i 1).val < 256 := (i 1).isLt
  have hi2 : (i 2).val < 2 := (i 2).isLt
  obtain ⟨t, ht⟩ := block_onto ⟨(i 0).val / 2048, by omega⟩
  have ht' : win0_3.index t (0 : Fin 3) = (i 0).val / 2048 := ht
  obtain ⟨-, -, -, -, -, -, e6, e7, -⟩ := block_indices t
  refine ⟨t, flush0_3 t, ?_⟩
  rw [mem_block]
  intro a
  match a with
  | ⟨0, _⟩ => show win0_3.index t (0 : Fin 3) * 2048 ≤ (i 0).val ∧ (i 0).val < win0_3.index t (0 : Fin 3) * 2048 + 2048; omega
  | ⟨1, _⟩ => show win0_3.index t (1 : Fin 3) * 256 ≤ (i 1).val ∧ (i 1).val < win0_3.index t (1 : Fin 3) * 256 + 256; omega
  | ⟨2, _⟩ => show win0_3.index t (2 : Fin 3) * 2 ≤ (i 2).val ∧ (i 2).val < win0_3.index t (2 : Fin 3) * 2 + 2; omega

/-! ## The array and the run -/

/-- THE RESULT ARRAY after the run is `gabor` of the three arguments. -/
theorem final (c : Dev nD) : (dats m 0 c).arrAt 3 cfg0.N
    = gabor (m ((c : Thread nD τ).loc main_arg0)) (m ((c : Thread nD τ).loc main_arg1)) (m ((c : Thread nD τ).loc main_arg2)) :=
  (dats m 0 c).arrAt_eq_of_cover 3 _ (fun t _ => flushed_eq m c t) cover

/-- The kernel's run: every weakly fair execution terminates with the result at `gabor` of the arguments and the arguments
    unchanged. -/
theorem run : θ_run defs (onTc (τ := τ) (main (F := Ideal))) ⟨m, fun _ => 0, ρ⟩ fun r => ∀ c : Dev nD,
      r.2.mem ((c : Thread nD τ).loc main_v1)
        = gabor (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.lean ====
/-
  A linear layer followed by a complex Gabor nonlinearity, as a row-blocked kernel against a whole-array reference.

  With `lin = x · Wᵀ + b` (an `[N, 256]` array, `N = 262144`), both programs return the `[N, 256, 2]` array whose two
  channels at `(n, o)` are `exp (−3600 · lin²) · cos (30 · lin)` and `exp (−3600 · lin²) · sin (30 · lin)` at `lin[n, o]`.
  The kernel walks the rows in 128 blocks of 2048, multiplying each block by the whole weight matrix on the matrix
  unit after a change of float format; the reference takes one `dot_general` over all rows. On the extended reals a change
  of format is the identity, the matrix unit's product into a zero accumulator and the host's `dot_general` are the same
  finite sum `∑ k, x[n, k] · W[o, k]`, the kernel's `exp`, `cos`, `sin` are the host's, and the two constants are the same
  f32 words on both sides. So both results are ONE function of the arguments, `Cert.Gabor.gabor` (Proof/GaborSpec.lean),
  and no law of the extended reals is needed beyond re-indexing that sum; in particular nothing here uses that the
  inputs are finite.

  The parts: Proof/RefIsGabor.lean reads the reference's stages at an index down to `gabor`; Proof/PayloadAt.lean reads
  what the kernel body stores at an index of its block; Proof/GaborBlocks.lean places block `t` at rows
  `2048 · t …` of the result, shows the 128 blocks cover it, and restates the kernel's run with the result at `gabor`.
  The kernel's idealization rewrote no operation, so that claim is `True`.
-/
import proofs.«130023_j36481452212333_2_alg».proof.Defs
import proofs.«130023_j36481452212333_2_alg».proof.Proof.Gen.Kernel
import proofs.«130023_j36481452212333_2_alg».proof.Proof.Gen.Kernel.Skeleton
import proofs.«130023_j36481452212333_2_alg».proof.Proof.Gen.Kernel.Launch
import proofs.«130023_j36481452212333_2_alg».proof.Proof.Gen.Kernel.Points
import proofs.«130023_j36481452212333_2_alg».proof.Proof.Gen.Kernel.Frame
import proofs.«130023_j36481452212333_2_alg».proof.Proof.Gen.KernelIdeal
import proofs.«130023_j36481452212333_2_alg».proof.Proof.Gen.KernelIdeal.Skeleton
import proofs.«130023_j36481452212333_2_alg».proof.Proof.Gen.KernelIdeal.Launch
import proofs.«130023_j36481452212333_2_alg».proof.Proof.Gen.KernelIdeal.Points
import proofs.«130023_j36481452212333_2_alg».proof.Proof.Gen.KernelIdeal.Frame
import proofs.«130023_j36481452212333_2_alg».proof.Proof.Gen.ReferenceIdeal
import proofs.«130023_j36481452212333_2_alg».proof.Proof.Gen.Pre_finite_inputs
import proofs.«130023_j36481452212333_2_alg».proof.Proof.Gen.KernelIdeal.Value
import proofs.«130023_j36481452212333_2_alg».proof.Proof.Gen.ReferenceIdeal.Run
import proofs.«130023_j36481452212333_2_alg».proof.Proof.Gen.ReferenceIdeal.Read
import proofs.«130023_j36481452212333_2_alg».proof.Proof.GaborSpec
import proofs.«130023_j36481452212333_2_alg».proof.Proof.RefIsGabor
import proofs.«130023_j36481452212333_2_alg».proof.Proof.PayloadAt
import proofs.«130023_j36481452212333_2_alg».proof.Proof.GaborBlocks
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- From memories that agree on `x`, `W` and `b`, both programs end with the result at `gabor x W b`. -/
theorem algebraic : Cert.algebraic_KernelIdeal_ReferenceIdeal := by
  intro m ρ m' ρ' _ hagree
  refine ⟨fun c => Cert.Gabor.gabor
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v16_eq _ _ _).trans (Cert.ReferenceIdeal.RefValue.ref_is_gabor _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
